-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel

variable [Facts]

def fn {F : FTy → Type} [FloatOps F] (main_arg0 : FVec F S8x64x64x64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  main_v3
-- ==== Kernel.lean ====
abbrev S8x64x64x64 : Shape := ⟨4, ![8, 64, 64, 64]⟩
abbrev S8x64x4096 : Shape := ⟨3, ![8, 64, 4096]⟩
abbrev S8x4096x64 : Shape := ⟨3, ![8, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x64x64x64, .f32⟩
  | .hbm, ⟨1, _⟩ => ⟨S8x64x4096, .f32⟩
  | .hbm, ⟨2, _⟩ => ⟨S8x4096x64, .f32⟩
  | .hbm, ⟨3, _⟩ => ⟨S8x4096x64, .f32⟩
  | .hbm, ⟨4, _⟩ => ⟨S8x64x4096, .f32⟩
  | .hbm, ⟨5, _⟩ => ⟨S8x64x64x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x512x64, .f32⟩
  | .local _ .vmem, ⟨5, _⟩ => ⟨S1x512x64, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x64x64x64_S8x64x4096 : S8x64x64x64.ShapeCasts S8x64x4096
  transposes_S8x64x4096_S8x4096x64_0_2_1 : S8x64x4096.Transposes [0, 2, 1] S8x4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  shapeCasts_S512x64_S1x512x64 : S512x64.ShapeCasts S1x512x64
  transposes_S8x4096x64_S8x64x4096_0_2_1 : S8x4096x64.Transposes [0, 2, 1] S8x64x4096
  shapeCasts_S8x64x4096_S8x64x64x64 : S8x64x4096.ShapeCasts S8x64x64x64
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x4096x64.size a
  hwx0_0 : ∀ i : grid0.Coords, EltTy.bits .f32 = 32 ∨ (Rect.block (s := S8x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x4096x64.size a
  hwx0_2 : ∀ i : grid0.Coords, EltTy.bits .f32 = 32 ∨ (Rect.block (s := S8x4096x64) S1x512x64.size (cc0_transform_2 i) (hinb0_2 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S8x64x4096 : Shape := ⟨3, ![8, 64, 4096]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S8x64x4096, .f32⟩
  | .hbm, ⟨2, _⟩ => ⟨S8x4096x64, .f32⟩
  | .hbm, ⟨3, _⟩ => ⟨S8x4096x4096, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096x64, .f32⟩
  | .hbm, ⟨19, _⟩ => ⟨S8x64x4096, .f32⟩
  | .hbm, ⟨20, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  shapeCasts_S8x64x64x64_S8x64x4096 : S8x64x64x64.ShapeCasts S8x64x4096
  transposes_S8x64x4096_S8x4096x64_0_2_1 : S8x64x4096.Transposes [0, 2, 1] S8x4096x64
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x64_S8x64x4096_0_2_1 : S8x4096x64.Transposes [0, 2, 1] S8x64x4096
  shapeCasts_S8x64x4096_S8x64x64x64 : S8x64x4096.ShapeCasts S8x64x64x64
  dot_S8x4096x64_S8x64x4096_S8x4096x4096_2_1_1_2_0_0_wf : DotDims.WF S8x4096x64 S8x64x4096 S8x4096x4096 [2] [1] [1] [2] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x64x4096_S8x4096x4096_2_1_1_2_0_0 : DotDims S8x4096x64 S8x64x4096 S8x4096x4096 where
  lhsContracting := [2]
  rhsContracting := [1]
  lhsNonContracting := [1]
  rhsNonContracting := [2]
  lhsBatch := [0]
  rhsBatch := [0]
  wf := dot_S8x4096x64_S8x64x4096_S8x4096x4096_2_1_1_2_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.KernelBody.lean ====
/-
  The attention kernel's body at one grid point, and the proof data of its pipeline.

  At a point the body is handed three staging buffers: the query tile (512 rows of one batch), the whole
  key/value slab of that batch (4096 rows), and the output tile. It reads the first two whole, computes one
  value `k0_pay1` of them — the tile's rows attended over the slab — and stores it over the whole output tile
  (it also reads the output tile once and discards what it read). So after the body the two inputs hold what
  they held and the output holds that value: the canonical form of one store covering the tile.

  The two input windows read ONE array (the transposed input): the core's full share of it is dealt as two
  half shares, one per window; the output window's array is held whole.
-/
import proofs.«118427_j65695819759964_2_alg».proof.Proof.Gen.Kernel.Launch
import proofs.«118427_j65695819759964_2_alg».proof.Proof.Gen.Kernel.Skeleton
import proofs.«118427_j65695819759964_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.AttnBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, for any proof data over these arrays whose
    body leaves the block in place. -/
theorem before_q_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key/value window's staging buffer likewise: unfetched at a point, its block index has not moved. -/
theorem before_kv_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses -/

/-- The whole query (and output) tile, and the whole key/value slab, as rectangles. -/
abbrev tileRect : Rect S1x512x64 := Rect.unit (s := S1x512x64) ![0, 0, 0] S1x512x64.size inb_S1x512x64_S1x512x64_0_0_0
abbrev slabRect : Rect S1x4096x64 := Rect.unit (s := S1x4096x64) ![0, 0, 0] S1x4096x64.size inb_S1x4096x64_S1x4096x64_0_0_0

/-- The output tile after the body, from the query tile and the slab: its one store, as a canonical form. -/
def outTile (x0 : Vec F S1x512x64 .f32) (x1 : Vec F S1x4096x64 .f32) : Vec F S1x512x64 .f32 :=
  View.canon [⟨tileRect, k0_pay1 (View.ld x0 tileRect) (View.ld x1 slabRect)⟩]

/-- The one store covers the tile. -/
theorem cover_out (p0 : Vec F S1x512x64 .f32) (y : S1x512x64.Idx) :
    ∃ pc ∈ ([⟨tileRect, p0⟩] : List (View.Piece (Elt F) S1x512x64 .f32)), y ∈ pc.1.set :=
  View.cover_of_tiled [⟨tileRect, p0⟩] S1x512x64.size (by rfl) y

/-! ## The body's triple -/

set_option maxHeartbeats 1000000 in
/-- The body on whole staging memrefs — the inputs' at contents `x0`, `x1`, the output's at anything — runs to
    the inputs' as they were and the output's at `outTile x0 x1`. -/
theorem sound_kernel (c : Dev nD) (E : Set ℕ) (i : grid0.Coords)
    (arg2 : Memref sig .tc .vmem S1x512x64 .f32) (harg2 : arg2.IsWhole) (arg3 : Memref sig .tc .vmem S1x4096x64 .f32) (harg3 : arg3.IsWhole)
    (arg4 : Memref sig .tc .vmem S1x512x64 .f32) (harg4 : arg4.IsWhole)
    (x0 : Vec F S1x512x64 .f32) (x1 : Vec F S1x4096x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body each input's buffer at its
    block and the output's at `outTile` of the two; the shared input array dealt as two half shares; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outTile (blockAt V c 0 t) (blockAt V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_q (c : Dev nD) (t : Fin cfg0.N) : (dat V c).after 0 t = blockAt V c 0 t := by dsimp only [dat]
theorem after_kv (c : Dev nD) (t : Fin cfg0.N) : (dat V c).after 1 t = blockAt V c 1 t := by dsimp only [dat]
theorem after_out (c : Dev nD) (t : Fin cfg0.N) : (dat V c).after 2 t = outTile (blockAt V c 0 t) (blockAt V c 1 t) := by dsimp only [dat]

theorem before_q (c : Dev nD) (t : Fin cfg0.N) (d) : (dat V c).before 0 t d = blockAt V c 0 t :=
  before_q_of V (dat V c) (A_eq V c 0) (after_q V c) t d
theorem before_kv (c : Dev nD) (t : Fin cfg0.N) (d) : (dat V c).before 1 t d = blockAt V c 1 t :=
  before_kv_of V (dat V c) (A_eq V c 1) (after_kv V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_kv]
  rw [show (dat V c).Φ t.succ = (dat V c).Φ t.castSucc from rfl,
    show (dat V c).owesAt () t.succ = (dat V c).owesAt () t.castSucc from rfl,
    after_q, after_kv, after_out]
  iintro ⟨HΦ, Ho, ⟨%d0, H0⟩, ⟨%d1, H1⟩, ⟨%d2, H2⟩⟩
  iapply (sound_kernel c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.AttnBody

end
-- ==== Proof.KernelRun.lean ====
/-
  The program's run: two host operations (a reshape and a transpose of the argument), the attention region,
  two host operations (a transpose and a reshape of the region's result).

  The thread state between segments is "every unscoped buffer of the core at a named valuation". Entering the
  region, the transposed input — read by BOTH input windows — is dealt as two half shares of one buffer and the
  output array is handed over whole; leaving it, the halves are joined again (an input array ends as it began)
  and the output array holds what the write-backs left. Every execution terminates, nothing faults, and each
  unscoped buffer ends at the last valuation.
-/
import proofs.«118427_j65695819759964_2_alg».proof.Proof.KernelBody

set_option maxRecDepth 16384

noncomputable section

namespace Cert.Kernel.AttnRun

open Cert.Kernel Cert.Kernel.Gen Cert.Kernel.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first two host operations: the region's entry. -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- The output array as the region leaves it: every write-back folded in. -/
def outArr (c : Dev nD) : Buf (Elt F) ((c : Thread nD τ).loc main_v2) := (dat (V1 m ρ) c).arrAt 2 cfg0.N
/-- At the region's exit: the output array at what the write-backs left, every other buffer as entered. -/
def W2 (c : Dev nD) : Valuation τ sig (Elt F) :=
  Function.update (W1 m ρ c) (Proc.devRef .tc main_v2) (outArr m ρ c)
abbrev V2 : (c : Dev nD) → (b : Ref sig .tc) → Buf (Elt F) ((c : Thread nD τ).loc b) := fun c b => W2 m ρ c b
/-- After the last two host operations: the end. -/
abbrev W3 : Dev nD → Valuation τ sig (Elt F) := fun c => StableHlo.after hostOps1 (W2 m ρ c)

theorem W2_out (c : Dev nD) : W2 m ρ c (Proc.devRef .tc main_v2) = outArr m ρ c := by
  unfold W2; exact Function.update_self _ _ _
theorem W2_of_ne (c : Dev nD) (b : Ref sig .tc) (hb : b ≠ main_v2) :
    W2 m ρ c (Proc.devRef .tc b) = W1 m ρ c (Proc.devRef .tc b) := by
  unfold W2; exact Function.update_of_ne (fun e => hb (Proc.devRef_injective _ e)) _ _

/-! ## The arrays of the region, window by window -/

/-- The distinct buffers behind the three windows are two: the transposed input and the output array. -/
theorem arrBufs_two (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- The proof data's arrays, one by one: the shared input at its two half shares, the output whole. -/
theorem arrays_three (c : Dev nD) (V : (c : Dev nD) → (b : Ref sig .tc) → Buf (Elt F) ((c : Thread nD τ).loc b))
    (Fa : (w : Fin cfg0.W) → Buf (Elt F) ((cfg0.win w).arr.view.loc (c : Thread nD τ))) :
    ((dat V c).arrays Fa : sProp 𝕄)
      = iprop((((c : Thread nD τ).loc main_v1) ↦{fullShare.left} Fa 0) ∗ (((c : Thread nD τ).loc main_v1) ↦{fullShare.right} Fa 1)
          ∗ (((c : Thread nD τ).loc main_v2) ↦{fullShare} Fa 2)) := by
  unfold Dat.arrays
  rw [bigSep_W0, (arr_whole0 0).set_eq_univ, (arr_whole0 2).set_eq_univ]
  rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last valuation. -/
abbrev Tₙ (c : Dev nD) : sProp 𝕄 := iprop(StableHlo.held (c : Thread nD τ) (Pipeline.ucRefs τ sig) (W3 m ρ c) ∗ ∃ r, prngReg c r)

/-! ## Entering and leaving the region -/

/-- ENTRY: every unscoped buffer at the entry valuation is the region's arrays — the shared input split into
    its two halves — beside the buffers no window reads. -/
theorem enter (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held c (W1 m ρ c),
    Pipeline.unscopedBufs_split₀ (cfgs) 0 winFacts₀0.arr_unscoped c (V1 m ρ c), arrBufs_two, arrays_three]
  iintro ⟨⟨H1, H2⟩, Hrest⟩
  ihave H1 := (pointsTo_share (PosShare.mem_left_op_right fullShare)).1 $$ H1
  icases H1 with ⟨H1l, H1r⟩
  isplitr [Hrest]
  · isplitl [H1l]; · iexact H1l
    isplitl [H1r]; · iexact H1r
    iexact H2
  iexact Hrest

/-- EXIT: the arrays as the region leaves them — the two halves of the input, unchanged, and the output — beside
    the buffers no window reads are every unscoped buffer at the exit valuation. -/
theorem leave (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c),
    Pipeline.unscopedBufs_split₀ (cfgs) 0 winFacts₀0.arr_unscoped c (V2 m ρ c), arrBufs_two, arrays_three,
    (dat (V1 m ρ) c).arrAt_in 0 rfl, (dat (V1 m ρ) c).arrAt_in 1 rfl]
  have e1 : V2 m ρ c main_v1 = V1 m ρ c main_v1 := W2_of_ne m ρ c main_v1 (by decide)
  have e2 : V2 m ρ c main_v2 = (dat (V1 m ρ) c).arrAt 2 cfg0.N := W2_out m ρ c
  have er : (Pipeline.unscopedRest (Ix := Unit) (Name := ℕ) (U := UR sig nD τ) (Lvl := ℕ) spec0 c (V2 m ρ c) : sProp 𝕄)
      = Pipeline.unscopedRest spec0 c (V1 m ρ c) := by
    unfold Pipeline.unscopedRest
    exact bigSep_congr fun b hb => by
      rw [show V2 m ρ c b = V1 m ρ c b from W2_of_ne m ρ c b fun e =>
        (Finset.mem_sdiff.mp hb).2 (Finset.mem_image.mpr ⟨2, Finset.mem_univ _, e.symm⟩)]
  rw [er, e1, e2]
  iintro ⟨⟨H1l, H1r, H2⟩, Hrest⟩
  isplitr [Hrest]
  · isplitr [H2]
    · iapply (pointsTo_share (PosShare.mem_left_op_right fullShare)).2
      isplitl [H1l]; · iexact H1l
      iexact H1r
    iexact H2
  iexact Hrest

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := enter m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and
    every unscoped buffer of every core ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- No host operation and no write-back touches the argument: at the end it holds what it held at launch. -/
theorem W3_arg (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- THE FRAME: the program runs to the end, faults nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg m ρ c)) (run_main m ρ)

end Cert.Kernel.AttnRun

end
-- ==== Proof.IdealBody.lean ====
/-
  The attention kernel's body at one grid point, and the proof data of its pipeline.

  At a point the body is handed three staging buffers: the query tile (512 rows of one batch), the whole
  key/value slab of that batch (4096 rows), and the output tile. It reads the first two whole, computes one
  value `k0_pay1` of them — the tile's rows attended over the slab — and stores it over the whole output tile
  (it also reads the output tile once and discards what it read). So after the body the two inputs hold what
  they held and the output holds that value: the canonical form of one store covering the tile.

  The two input windows read ONE array (the transposed input): the core's full share of it is dealt as two
  half shares, one per window; the output window's array is held whole.
-/
import proofs.«118427_j65695819759964_2_alg».proof.Proof.Gen.KernelIdeal.Launch
import proofs.«118427_j65695819759964_2_alg».proof.Proof.Gen.KernelIdeal.Skeleton
import proofs.«118427_j65695819759964_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.AttnBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, for any proof data over these arrays whose
    body leaves the block in place. -/
theorem before_q_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key/value window's staging buffer likewise: unfetched at a point, its block index has not moved. -/
theorem before_kv_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses -/

/-- The whole query (and output) tile, and the whole key/value slab, as rectangles. -/
abbrev tileRect : Rect S1x512x64 := Rect.unit (s := S1x512x64) ![0, 0, 0] S1x512x64.size inb_S1x512x64_S1x512x64_0_0_0
abbrev slabRect : Rect S1x4096x64 := Rect.unit (s := S1x4096x64) ![0, 0, 0] S1x4096x64.size inb_S1x4096x64_S1x4096x64_0_0_0

/-- The output tile after the body, from the query tile and the slab: its one store, as a canonical form. -/
def outTile (x0 : Vec F S1x512x64 .f32) (x1 : Vec F S1x4096x64 .f32) : Vec F S1x512x64 .f32 :=
  View.canon [⟨tileRect, k0_pay1 (View.ld x0 tileRect) (View.ld x1 slabRect)⟩]

/-- The one store covers the tile. -/
theorem cover_out (p0 : Vec F S1x512x64 .f32) (y : S1x512x64.Idx) :
    ∃ pc ∈ ([⟨tileRect, p0⟩] : List (View.Piece (Elt F) S1x512x64 .f32)), y ∈ pc.1.set :=
  View.cover_of_tiled [⟨tileRect, p0⟩] S1x512x64.size (by rfl) y

/-! ## The body's triple -/

set_option maxHeartbeats 1000000 in
/-- The body on whole staging memrefs — the inputs' at contents `x0`, `x1`, the output's at anything — runs to
    the inputs' as they were and the output's at `outTile x0 x1`. -/
theorem sound_kernel (c : Dev nD) (E : Set ℕ) (i : grid0.Coords)
    (arg2 : Memref sig .tc .vmem S1x512x64 .f32) (harg2 : arg2.IsWhole) (arg3 : Memref sig .tc .vmem S1x4096x64 .f32) (harg3 : arg3.IsWhole)
    (arg4 : Memref sig .tc .vmem S1x512x64 .f32) (harg4 : arg4.IsWhole)
    (x0 : Vec F S1x512x64 .f32) (x1 : Vec F S1x4096x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body each input's buffer at its
    block and the output's at `outTile` of the two; the shared input array dealt as two half shares; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => outTile (blockAt V c 0 t) (blockAt V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_q (c : Dev nD) (t : Fin cfg0.N) : (dat V c).after 0 t = blockAt V c 0 t := by dsimp only [dat]
theorem after_kv (c : Dev nD) (t : Fin cfg0.N) : (dat V c).after 1 t = blockAt V c 1 t := by dsimp only [dat]
theorem after_out (c : Dev nD) (t : Fin cfg0.N) : (dat V c).after 2 t = outTile (blockAt V c 0 t) (blockAt V c 1 t) := by dsimp only [dat]

theorem before_q (c : Dev nD) (t : Fin cfg0.N) (d) : (dat V c).before 0 t d = blockAt V c 0 t :=
  before_q_of V (dat V c) (A_eq V c 0) (after_q V c) t d
theorem before_kv (c : Dev nD) (t : Fin cfg0.N) (d) : (dat V c).before 1 t d = blockAt V c 1 t :=
  before_kv_of V (dat V c) (A_eq V c 1) (after_kv V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_kv]
  rw [show (dat V c).Φ t.succ = (dat V c).Φ t.castSucc from rfl,
    show (dat V c).owesAt () t.succ = (dat V c).owesAt () t.castSucc from rfl,
    after_q, after_kv, after_out]
  iintro ⟨HΦ, Ho, ⟨%d0, H0⟩, ⟨%d1, H1⟩, ⟨%d2, H2⟩⟩
  iapply (sound_kernel c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.AttnBody

end
-- ==== Proof.IdealRun.lean ====
/-
  The program's run: two host operations (a reshape and a transpose of the argument), the attention region,
  two host operations (a transpose and a reshape of the region's result).

  The thread state between segments is "every unscoped buffer of the core at a named valuation". Entering the
  region, the transposed input — read by BOTH input windows — is dealt as two half shares of one buffer and the
  output array is handed over whole; leaving it, the halves are joined again (an input array ends as it began)
  and the output array holds what the write-backs left. Every execution terminates, nothing faults, and each
  unscoped buffer ends at the last valuation.
-/
import proofs.«118427_j65695819759964_2_alg».proof.Proof.IdealBody

set_option maxRecDepth 16384

noncomputable section

namespace Cert.KernelIdeal.AttnRun

open Cert.KernelIdeal Cert.KernelIdeal.Gen Cert.KernelIdeal.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first two host operations: the region's entry. -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- The output array as the region leaves it: every write-back folded in. -/
def outArr (c : Dev nD) : Buf (Elt F) ((c : Thread nD τ).loc main_v2) := (dat (V1 m ρ) c).arrAt 2 cfg0.N
/-- At the region's exit: the output array at what the write-backs left, every other buffer as entered. -/
def W2 (c : Dev nD) : Valuation τ sig (Elt F) :=
  Function.update (W1 m ρ c) (Proc.devRef .tc main_v2) (outArr m ρ c)
abbrev V2 : (c : Dev nD) → (b : Ref sig .tc) → Buf (Elt F) ((c : Thread nD τ).loc b) := fun c b => W2 m ρ c b
/-- After the last two host operations: the end. -/
abbrev W3 : Dev nD → Valuation τ sig (Elt F) := fun c => StableHlo.after hostOps1 (W2 m ρ c)

theorem W2_out (c : Dev nD) : W2 m ρ c (Proc.devRef .tc main_v2) = outArr m ρ c := by
  unfold W2; exact Function.update_self _ _ _
theorem W2_of_ne (c : Dev nD) (b : Ref sig .tc) (hb : b ≠ main_v2) :
    W2 m ρ c (Proc.devRef .tc b) = W1 m ρ c (Proc.devRef .tc b) := by
  unfold W2; exact Function.update_of_ne (fun e => hb (Proc.devRef_injective _ e)) _ _

/-! ## The arrays of the region, window by window -/

/-- The distinct buffers behind the three windows are two: the transposed input and the output array. -/
theorem arrBufs_two (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- The proof data's arrays, one by one: the shared input at its two half shares, the output whole. -/
theorem arrays_three (c : Dev nD) (V : (c : Dev nD) → (b : Ref sig .tc) → Buf (Elt F) ((c : Thread nD τ).loc b))
    (Fa : (w : Fin cfg0.W) → Buf (Elt F) ((cfg0.win w).arr.view.loc (c : Thread nD τ))) :
    ((dat V c).arrays Fa : sProp 𝕄)
      = iprop((((c : Thread nD τ).loc main_v1) ↦{fullShare.left} Fa 0) ∗ (((c : Thread nD τ).loc main_v1) ↦{fullShare.right} Fa 1)
          ∗ (((c : Thread nD τ).loc main_v2) ↦{fullShare} Fa 2)) := by
  unfold Dat.arrays
  rw [bigSep_W0, (arr_whole0 0).set_eq_univ, (arr_whole0 2).set_eq_univ]
  rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last valuation. -/
abbrev Tₙ (c : Dev nD) : sProp 𝕄 := iprop(StableHlo.held (c : Thread nD τ) (Pipeline.ucRefs τ sig) (W3 m ρ c) ∗ ∃ r, prngReg c r)

/-! ## Entering and leaving the region -/

/-- ENTRY: every unscoped buffer at the entry valuation is the region's arrays — the shared input split into
    its two halves — beside the buffers no window reads. -/
theorem enter (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held c (W1 m ρ c),
    Pipeline.unscopedBufs_split₀ (cfgs) 0 winFacts₀0.arr_unscoped c (V1 m ρ c), arrBufs_two, arrays_three]
  iintro ⟨⟨H1, H2⟩, Hrest⟩
  ihave H1 := (pointsTo_share (PosShare.mem_left_op_right fullShare)).1 $$ H1
  icases H1 with ⟨H1l, H1r⟩
  isplitr [Hrest]
  · isplitl [H1l]; · iexact H1l
    isplitl [H1r]; · iexact H1r
    iexact H2
  iexact Hrest

/-- EXIT: the arrays as the region leaves them — the two halves of the input, unchanged, and the output — beside
    the buffers no window reads are every unscoped buffer at the exit valuation. -/
theorem leave (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c),
    Pipeline.unscopedBufs_split₀ (cfgs) 0 winFacts₀0.arr_unscoped c (V2 m ρ c), arrBufs_two, arrays_three,
    (dat (V1 m ρ) c).arrAt_in 0 rfl, (dat (V1 m ρ) c).arrAt_in 1 rfl]
  have e1 : V2 m ρ c main_v1 = V1 m ρ c main_v1 := W2_of_ne m ρ c main_v1 (by decide)
  have e2 : V2 m ρ c main_v2 = (dat (V1 m ρ) c).arrAt 2 cfg0.N := W2_out m ρ c
  have er : (Pipeline.unscopedRest (Ix := Unit) (Name := ℕ) (U := UR sig nD τ) (Lvl := ℕ) spec0 c (V2 m ρ c) : sProp 𝕄)
      = Pipeline.unscopedRest spec0 c (V1 m ρ c) := by
    unfold Pipeline.unscopedRest
    exact bigSep_congr fun b hb => by
      rw [show V2 m ρ c b = V1 m ρ c b from W2_of_ne m ρ c b fun e =>
        (Finset.mem_sdiff.mp hb).2 (Finset.mem_image.mpr ⟨2, Finset.mem_univ _, e.symm⟩)]
  rw [er, e1, e2]
  iintro ⟨⟨H1l, H1r, H2⟩, Hrest⟩
  isplitr [Hrest]
  · isplitr [H2]
    · iapply (pointsTo_share (PosShare.mem_left_op_right fullShare)).2
      isplitl [H1l]; · iexact H1l
      iexact H1r
    iexact H2
  iexact Hrest

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := enter m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and
    every unscoped buffer of every core ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The argument ends as launched -/

/-- No host operation and no write-back touches the argument: at the end it holds what it held at launch. -/
theorem W3_arg (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- THE FRAME: the program runs to the end, faults nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W3_arg m ρ c)) (run_main m ρ)

end Cert.KernelIdeal.AttnRun

end
-- ==== Proof.IdealBlocks.lean ====
/-
  Where the attention region's blocks sit in their arrays.

  The grid is 8 batches by 8 query tiles. At the point of batch `b` and tile `q` the query window and the
  output window both hold rows `512 q … 512 q + 511` of batch `b`, and the key/value window holds all 4096 rows
  of batch `b`. So entry (r, k) of the query block is the array's entry (b, 512 q + r, k), entry (n, k) of the
  key/value block is the array's entry (b, n, k), and the output blocks, one per point, tile the output array:
  row `n` of batch `b` is covered by the point of batch `b` and tile `n / 512`.
-/
import proofs.«118427_j65695819759964_2_alg».proof.Proof.IdealRun
import Idealize.ShloMosaic.Lib.Pipeline.Value
import Idealize.ShloMosaic.Lib.ValueIdx

set_option maxRecDepth 16384

noncomputable section

namespace Cert.KernelIdeal.AttnBlocks

open Cert.KernelIdeal Cert.KernelIdeal.Gen Cert.KernelIdeal.AttnBody
open Idealize.ShloMosaic Idealize.ShloMosaic.TcCoe Idealize.ShloMosaic.ValueIdx Idealize.SL.Sem
open Idealize.ShloMosaic.Pipeline (Dat)

variable {F : FTy → Type} [FloatOps F]

theorem zero3 : (![0, 0, 0] : Fin 3 → Nat) = fun _ => 0 := funext fun a => by fin_cases a <;> rfl

/-- The printed index maps, decided over the grid: the query window moves with the output window; the key/value
    window follows the batch only; the output's block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 7 ∧ win0_2.index t (1 : Fin 3) ≤ 7 ∧ win0_2.index t (2 : Fin 3) = 0 :=
  (by decide +kernel : ∀ t : Fin grid0.N, _)

/-- Every (batch, tile) pair is some point's. -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- The batch of a point, -/
def batchOf (t : Fin cfg0.N) : Fin 8 :=
  ⟨win0_2.index t (0 : Fin 3), by have := (idx_facts t).2.2.2.2.2.2.1; omega⟩
/-- and the array row of row `r` of its tile. -/
def rowOf (t : Fin cfg0.N) (r : Fin 512) : Fin 4096 :=
  ⟨win0_2.index t (1 : Fin 3) * 512 + r.val, by have := (idx_facts t).2.2.2.2.2.2.2.1; have := r.isLt; omega⟩

variable (V : (c : Dev nD) → (b : Ref sig .tc) → Buf (Elt F) ((c : Thread nD τ).loc b))

/-- The query block's entry (r, k) is the array's entry (batch, tile row r, k). -/
theorem q_block (c : Dev nD) (t : Fin cfg0.N) (r : Fin 512) (k : Fin 64) :
    blockAt V c 0 t (ix3 (0 : Fin 1) r k) = V c main_v1 (ix3 (batchOf t) (rowOf t r) k) := by
  obtain ⟨e0, e1, e2, -⟩ := idx_facts t
  unfold blockAt
  show V c main_v1 (((cfg0.win 0).blk t).view.emb (ix3 (0 : Fin 1) r k)) = _
  refine congrArg (V c main_v1) ?_
  funext a; apply Fin.ext
  match a with
  | ⟨0, _⟩ => show win0_0.index t (0 : Fin 3) * 1 + 1 * 0 = win0_2.index t (0 : Fin 3); omega
  | ⟨1, _⟩ => show win0_0.index t (1 : Fin 3) * 512 + 1 * r.val = win0_2.index t (1 : Fin 3) * 512 + r.val; omega
  | ⟨2, _⟩ => show win0_0.index t (2 : Fin 3) * 64 + 1 * k.val = k.val; omega

/-- The key/value block's entry (n, k) is the array's entry (batch, n, k). -/
theorem kv_block (c : Dev nD) (t : Fin cfg0.N) (n : Fin 4096) (k : Fin 64) :
    blockAt V c 1 t (ix3 (0 : Fin 1) n k) = V c main_v1 (ix3 (batchOf t) n k) := by
  obtain ⟨-, -, -, e0, e1, e2, -⟩ := idx_facts t
  unfold blockAt
  show V c main_v1 (((cfg0.win 1).blk t).view.emb (ix3 (0 : Fin 1) n k)) = _
  refine congrArg (V c main_v1) ?_
  funext a; apply Fin.ext
  match a with
  | ⟨0, _⟩ => show win0_1.index t (0 : Fin 3) * 1 + 1 * 0 = win0_2.index t (0 : Fin 3); omega
  | ⟨1, _⟩ => show win0_1.index t (1 : Fin 3) * 4096 + 1 * n.val = n.val; omega
  | ⟨2, _⟩ => show win0_1.index t (2 : Fin 3) * 64 + 1 * k.val = k.val; omega

/-- The output block's entry (r, d) sits at the array's (batch, tile row r, d). -/
theorem out_emb (t : Fin cfg0.N) (r : Fin 512) (d : Fin 64) :
    ((cfg0.win 2).blk t).view.emb (ix3 (0 : Fin 1) r d) = ix3 (batchOf t) (rowOf t r) d := by
  obtain ⟨-, -, -, -, -, -, -, -, e2⟩ := idx_facts t
  funext a; apply Fin.ext
  match a with
  | ⟨0, _⟩ => show win0_2.index t (0 : Fin 3) * 1 + 1 * 0 = win0_2.index t (0 : Fin 3); omega
  | ⟨1, _⟩ => show win0_2.index t (1 : Fin 3) * 512 + 1 * r.val = win0_2.index t (1 : Fin 3) * 512 + r.val; omega
  | ⟨2, _⟩ => show win0_2.index t (2 : Fin 3) * 64 + 1 * d.val = d.val; omega

/-- An index of the output array is in point `t`'s block iff each coordinate is in the block's range. -/
theorem mem_blk (t : Fin cfg0.N) (i : S8x4096x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v2).slice (win0_2.rect t)).set ↔ _
  rw [View.set_slice_whole, Rect.mem_set_unit]
  exact Iff.rfl

/-- The output blocks cover the output array: row `n` of batch `b` is in the block of batch `b`, tile `n / 512`. -/
theorem cover (i : S8x4096x64.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

end Cert.KernelIdeal.AttnBlocks

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.IdealPayload.lean ====
/-
  The body's arithmetic, read at an index.

  One step of the kernel reads a tile of 512 rows `x0` and all 4096 rows `x1` of a batch (64 features each)
  and writes, for every row `r` of the tile and every feature `d`, the quotient

      (∑ m, exp (s r m - max_m' (s r m')) * x1 m d) / (∑ m, exp (s r m - max_m' (s r m'))),

  where `s r m = ∑ c, x0 r c * x1 m c` is the score of row `r` of the tile against row `m`, and the maximum
  is the fold of `max` from `⊥` over the 4096 rows. The written value is one pure term: casts between
  `[1, n, 64]` and `[n, 64]` (the same entries), a narrowing of the format (the identity on extended reals), a
  transpose, two products of tiles accumulated into zero (entrywise sums of products), a row maximum and a row
  sum (each kept as a column and stretched back over the row), a difference, an exponential and a quotient.
  Each operation is read at an index in turn; the tile of scores and the tile of exponentials are named, so
  that each is read once.
-/
import proofs.«118427_j65695819759964_2_alg».proof.Proof.Gen.KernelIdeal.Skeleton
import proofs.«118427_j65695819759964_2_alg».proof.Proof.LibTileOps
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.AttnValue

open Cert.KernelIdeal Cert.KernelIdeal.Gen Idealize.ShloMosaic Idealize.ShloMosaic.ValueIdx

/-! ## A column kept by a reduction: cast from a vector, stretched over a row -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` stretched to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => rfl

/-! ## The two products of tiles and the two row reductions, at this program's extents -/

/-- The tile of scores: the product of a `[512, 64]` tile by the transpose of a `[4096, 64]` tile into zero reads,
    at `(r, m)`, the inner product of row `r` of the first with row `m` of the second. -/
theorem scoreTile_apply (A : FVec Ideal S512x64 .bf16) (B : FVec Ideal S4096x64 .bf16) (r : Fin 512) (m : Fin 4096) :
    matmul dot_S512x64_S64x4096_S512x4096_1_0_0_1_n_n none A
        (transpose S64x4096 [1, 0] B transposes_S4096x64_p1_0_S64x4096) (constant S512x4096 .f32 0x00000000#32) (ix2 r m)
      = ∑ c : Fin 64, A (ix2 r c) * B (ix2 m c) := by
  refine (TileOps.matmul_zero_apply dot_S512x64_S64x4096_S512x4096_1_0_0_1_n_n_wf none A _ r m).trans ?_
  exact Finset.sum_congr rfl fun c _ => by rw [transpose_ix2_apply]

/-- The weighted sum: the product of a `[512, 4096]` tile by a `[4096, 64]` tile into zero reads, at `(r, d)`,
    the sum over the 4096 rows of the products of the entries. -/
theorem outTile_apply (P : FVec Ideal S512x4096 .bf16) (B : FVec Ideal S4096x64 .bf16) (r : Fin 512) (d : Fin 64) :
    matmul dot_S512x4096_S4096x64_S512x64_1_0_0_1_n_n none P B (constant S512x64 .f32 0x00000000#32) (ix2 r d)
      = ∑ m : Fin 4096, P (ix2 r m) * B (ix2 m d) :=
  TileOps.matmul_zero_apply dot_S512x4096_S4096x64_S512x64_1_0_0_1_n_n_wf none P B r d

/-- The word `0xFF800000` of the 32-bit format encodes `-∞`. -/
theorem neg_inf_word : FloatOps.ofBits (F := Ideal) .f32 0xFF800000#32 = (⊥ : EReal) := by
  show Ideal.ofBits .f32 0xFF800000#32 = ⊥
  simp [Ideal.ofBits, Ideal.ieee]

/-- The index a reduction over the second axis inserts at row `r` and coordinate `m` is `(r, m)`. -/
theorem lift_row (r : Fin 512) (m : Fin 4096) :
    reduces_S512x4096_S512.lift (ix1 r) m = ix2 r m :=
  funext fun c => Fin.ext (match c with | ⟨0, _⟩ => rfl | ⟨1, _⟩ => rfl)

/-- The row maximum of a `[512, 4096]` tile from `-∞` reads, at `r`, the fold of `max` from `⊥` over row `r`. -/
theorem rowMaxTile_apply (X : FVec Ideal S512x4096 .f32) (r : Fin 512) :
    multiReduction (F := Ideal) .maximumf [1] S512 X 0xFF800000#32 reduces_S512x4096_S512 (.inl rfl) rfl (ix1 r)
      = (Finset.univ : Finset (Fin 4096)).fold max ⊥ (fun m => X (ix2 r m)) := by
  refine (Ideal.multiReduction_maximumf_single X _ reduces_S512x4096_S512 _ _ (ix1 r)).trans ?_
  have hfun : (X ∘ reduces_S512x4096_S512.lift (ix1 r)) = fun m : Fin 4096 => X (ix2 r m) :=
    funext fun m => congrArg X (lift_row r m)
  rw [neg_inf_word, hfun]
  rfl

/-- The row sum of a `[512, 4096]` tile from zero reads, at `r`, the sum over row `r`. -/
theorem rowSumTile_apply (X : FVec Ideal S512x4096 .f32) (r : Fin 512) :
    multiReduction (F := Ideal) .add [1] S512 X 0x00000000#32 reduces_S512x4096_S512 (.inl rfl) rfl (ix1 r)
      = ∑ m : Fin 4096, X (ix2 r m) := by
  refine (Ideal.multiReduction_add_single X _ reduces_S512x4096_S512 _ _ (ix1 r)).trans ?_
  exact Finset.sum_congr rfl fun m _ => congrArg X (lift_row r m)

/-! ## The tile of scores and the tile of exponentials, named -/

/-- The score of row `r` of the tile `x0` against row `m` of `x1`: their inner product over the 64 features. -/
def tileScore (x0 : Vec Ideal S1x512x64 .f32) (x1 : Vec Ideal S1x4096x64 .f32) (r : Fin 512) (m : Fin 4096) : EReal :=
  ∑ c : Fin 64, x0 (ix3 (0 : Fin 1) r c) * x1 (ix3 (0 : Fin 1) m c)

/-- The rows of `x1` as a `[4096, 64]` tile in the narrow format (the same entries). -/
def rowsTile (x1 : Vec Ideal S1x4096x64 .f32) : FVec Ideal S4096x64 .bf16 :=
  truncf .bf16 (shapeCast S4096x64 x1 shapeCasts_S1x4096x64_S4096x64) bitsLt_bf16_f32

/-- The `[512, 4096]` tile of scores, as the body computes it. -/
def sTile (x0 : Vec Ideal S1x512x64 .f32) (x1 : Vec Ideal S1x4096x64 .f32) : FVec Ideal S512x4096 .f32 :=
  matmul dot_S512x64_S64x4096_S512x4096_1_0_0_1_n_n none
    (truncf .bf16 (shapeCast S512x64 x0 shapeCasts_S1x512x64_S512x64) bitsLt_bf16_f32)
    (transpose S64x4096 [1, 0] (rowsTile x1) transposes_S4096x64_p1_0_S64x4096)
    (constant S512x4096 .f32 0x00000000#32)

/-- The `[512, 4096]` tile of exponentials of the scores less their row maxima, as the body computes it. -/
def eTile (x0 : Vec Ideal S1x512x64 .f32) (x1 : Vec Ideal S1x4096x64 .f32) : FVec Ideal S512x4096 .f32 :=
  exp (subf (sTile x0 x1)
    (broadcastTo S512x4096
      (shapeCast S512x1
        (multiReduction .maximumf [1] S512 (sTile x0 x1) 0xFF800000#32 reduces_S512x4096_S512 (.inl rfl) rfl)
        shapeCasts_S512_S512x1)
      broadcasts_S512x1_S512x4096))

/-- The written value over the two named tiles: the definitions unfold to the same term. -/
theorem pay_eq (x0 : Vec Ideal S1x512x64 .f32) (x1 : Vec Ideal S1x4096x64 .f32) :
    k0_pay1 (F := Ideal) x0 x1
      = shapeCast S1x512x64
          (divf
            (matmul dot_S512x4096_S4096x64_S512x64_1_0_0_1_n_n none
              (truncf .bf16 (eTile x0 x1) bitsLt_bf16_f32) (rowsTile x1) (constant S512x64 .f32 0x00000000#32))
            (broadcastTo S512x64
              (shapeCast S512x1
                (multiReduction .add [1] S512 (eTile x0 x1) 0x00000000#32 reduces_S512x4096_S512 (.inl rfl) rfl)
                shapeCasts_S512_S512x1)
              broadcasts_S512x1_S512x64))
          shapeCasts_S512x64_S1x512x64 := rfl

/-- The rows tile reads, at `(m, c)`, entry `(0, m, c)` of `x1`. -/
theorem rowsTile_apply (x1 : Vec Ideal S1x4096x64 .f32) (m : Fin 4096) (c : Fin 64) :
    rowsTile x1 (ix2 m c) = x1 (ix3 (0 : Fin 1) m c) :=
  shapeCast_1ab_ab_apply x1 shapeCasts_S1x4096x64_S4096x64 m c

/-- The tile of scores reads, at `(r, m)`, the score of row `r` against row `m`. -/
theorem sTile_apply (x0 : Vec Ideal S1x512x64 .f32) (x1 : Vec Ideal S1x4096x64 .f32) (r : Fin 512) (m : Fin 4096) :
    sTile x0 x1 (ix2 r m) = tileScore x0 x1 r m := by
  unfold sTile tileScore
  refine (scoreTile_apply _ _ r m).trans ?_
  refine Finset.sum_congr rfl fun c _ => ?_
  rw [rowsTile_apply]
  exact congrArg (· * x1 (ix3 (0 : Fin 1) m c)) (shapeCast_1ab_ab_apply x0 shapeCasts_S1x512x64_S512x64 r c)

/-- The tile of exponentials reads, at `(r, m)`, the exponential of the score less the row's maximum. -/
theorem eTile_apply (x0 : Vec Ideal S1x512x64 .f32) (x1 : Vec Ideal S1x4096x64 .f32) (r : Fin 512) (m : Fin 4096) :
    eTile x0 x1 (ix2 r m)
      = Ideal.exp (tileScore x0 x1 r m - (Finset.univ : Finset (Fin 4096)).fold max ⊥ (tileScore x0 x1 r)) := by
  have hrow : (fun m' : Fin 4096 => sTile x0 x1 (ix2 r m')) = tileScore x0 x1 r :=
    funext fun m' => sTile_apply x0 x1 r m'
  unfold eTile
  show Ideal.exp (sTile x0 x1 (ix2 r m) - broadcastTo S512x4096 _ broadcasts_S512x1_S512x4096 (ix2 r m)) = _
  rw [broadcastTo_a1_ab_apply, shapeCast_a_a1_apply, rowMaxTile_apply, hrow, sTile_apply]

/-! ## The written value at an index -/

/-- The written value at row `r` and feature `d`: the weighted sum of the rows of `x1`, the weights the exponentials
    of the scores less their maximum, divided once by the sum of the weights. -/
theorem pay_apply (x0 : Vec Ideal S1x512x64 .f32) (x1 : Vec Ideal S1x4096x64 .f32) (r : Fin 512) (d : Fin 64) :
    k0_pay1 (F := Ideal) x0 x1 (ix3 (0 : Fin 1) r d)
      = Ideal.div (∑ m : Fin 4096, Ideal.exp (tileScore x0 x1 r m - (Finset.univ : Finset (Fin 4096)).fold max ⊥ (tileScore x0 x1 r)) * x1 (ix3 (0 : Fin 1) m d))
          (∑ m : Fin 4096, Ideal.exp (tileScore x0 x1 r m - (Finset.univ : Finset (Fin 4096)).fold max ⊥ (tileScore x0 x1 r))) := by
  rw [pay_eq]
  refine (shapeCast_ab_1ab_apply _ shapeCasts_S512x64_S1x512x64 (0 : Fin 1) r d).trans ?_
  rw [divf_apply, outTile_apply, broadcastTo_a1_ab_apply, shapeCast_a_a1_apply, rowSumTile_apply]
  refine congr (congrArg Ideal.div (Finset.sum_congr rfl fun m _ => ?_))
    (Finset.sum_congr rfl fun m _ => eTile_apply x0 x1 r m)
  rw [rowsTile_apply]
  exact congrArg (· * x1 (ix3 (0 : Fin 1) m d)) (eTile_apply x0 x1 r m)

end Cert.KernelIdeal.AttnValue

end
-- ==== Proof.AttnSpec.lean ====
/-
  Self-attention of an array with itself, stated once over the extended reals and by coordinates.

  For an array `y` of 8 batches of 4096 rows of 64 features: the score of rows `n` and `m` of a batch is
  their inner product; a row's scores are shifted by their maximum (the fold of `max` from `⊥`), exponentiated
  and summed; the result's row `n` is the combination of the batch's rows with those exponentials as weights,
  normalised by their sum. The two forms below differ only in WHERE the normalisation sits: `outK` divides the
  weighted sum once, `outR` divides every weight before summing. They agree when every entry of `y` is a real
  number (`Proof/AttnLaw.lean`): every score is then real, the maximum is attained and real, every exponential
  is a positive real, and the row sum is a positive real, by which division distributes over a finite sum.
-/
import Idealize.ShloMosaic.PureOps.Ideal
import Idealize.ShloMosaic.Lib.ValueIdx

noncomputable section

open scoped BigOperators

namespace Cert.Attn

open Idealize.ShloMosaic

/-- An array of 8 batches of 4096 rows of 64 features, by coordinates. -/
abbrev Rows : Type := Fin 8 → Fin 4096 → Fin 64 → EReal

/-- The score of row `n` against row `m` of batch `b`: their inner product over the 64 features. -/
def score (y : Rows) (b : Fin 8) (n m : Fin 4096) : EReal := ∑ c : Fin 64, y b n c * y b m c

/-- The largest score of row `n`: the fold of `max` over the 4096 rows, from `⊥`. -/
def rowMax (y : Rows) (b : Fin 8) (n : Fin 4096) : EReal :=
  (Finset.univ : Finset (Fin 4096)).fold max ⊥ (score y b n)

/-- The unnormalised weight of row `m` for row `n`: the exponential of the score less the row's maximum. -/
def weight (y : Rows) (b : Fin 8) (n m : Fin 4096) : EReal := Ideal.exp (score y b n m - rowMax y b n)

/-- The sum of row `n`'s weights. -/
def rowSum (y : Rows) (b : Fin 8) (n : Fin 4096) : EReal := ∑ m : Fin 4096, weight y b n m

/-- The result with the weighted sum divided ONCE by the row sum. -/
def outK (y : Rows) (b : Fin 8) (n : Fin 4096) (d : Fin 64) : EReal :=
  Ideal.div (∑ m : Fin 4096, weight y b n m * y b m d) (rowSum y b n)

/-- The result with EVERY weight divided by the row sum before the sum is taken. -/
def outR (y : Rows) (b : Fin 8) (n : Fin 4096) (d : Fin 64) : EReal :=
  ∑ m : Fin 4096, Ideal.div (weight y b n m) (rowSum y b n) * y b m d

end Cert.Attn

end
-- ==== Proof.IdealValue.lean ====
/-
  What the attention region leaves in its output array, at the ideal values.

  Write `Y` for the region's input array ([8,4096,64]). Point (batch b, tile q) writes back a 512×64 tile whose
  entry (r, d) is the body's arithmetic of rows 512 q … 512 q + 511 of batch b against all rows of batch b: the
  exponentials of the scores of row 512 q + r, less their maximum, weighting the batch's rows, the weighted sum
  divided by the exponentials' sum. That is entry (b, 512 q + r, d) of ONE function of `Y` — the attention of `Y`
  with itself, `Cert.Attn.outK` by coordinates — and the tiles cover the array, so the array ends holding it.
-/
import proofs.«118427_j65695819759964_2_alg».proof.Proof.IdealBlocks
import proofs.«118427_j65695819759964_2_alg».proof.Proof.IdealPayload
import proofs.«118427_j65695819759964_2_alg».proof.Proof.AttnSpec

set_option maxRecDepth 16384

noncomputable section

namespace Cert.KernelIdeal.AttnValue

open Cert.KernelIdeal Cert.KernelIdeal.Gen Cert.KernelIdeal.AttnBody Cert.KernelIdeal.AttnRun Cert.KernelIdeal.AttnBlocks
open Idealize.ShloMosaic Idealize.ShloMosaic.TcCoe Idealize.ShloMosaic.ValueIdx Idealize.SL.Sem
open Idealize.ShloMosaic.Pipeline (Dat)

/-- An [8,4096,64] array's rows by coordinates. -/
def rowsOf (Y : S8x4096x64.Idx → EReal) : Cert.Attn.Rows := fun b n c => Y (ix3 b n c)

/-- The attention of an array with itself, as an array. -/
def attnOf (Y : S8x4096x64.Idx → EReal) : S8x4096x64.Idx → EReal :=
  fun i => Cert.Attn.outK (rowsOf Y) (i 0) (i 1) (i 2)

variable (m : (ℓ : Loc nD τ sig) → Buf (Elt Ideal) ℓ) (ρ : Dev nD → PrngReg)

/-- The body's arithmetic of a point's two blocks, at entry (r, d), is the attention array's entry at the
    tile's place. -/
theorem tile_entry (c : Dev nD) (t : Fin cfg0.N) (r : Fin 512) (d : Fin 64) :
    k0_pay1 (F := Ideal) (blockAt (V1 m ρ) c 0 t) (blockAt (V1 m ρ) c 1 t) (ix3 (0 : Fin 1) r d)
      = Cert.Attn.outK (rowsOf (V1 m ρ c main_v1)) (batchOf t) (rowOf t r) d := by
  have hs : tileScore (blockAt (V1 m ρ) c 0 t) (blockAt (V1 m ρ) c 1 t) r
      = Cert.Attn.score (rowsOf (V1 m ρ c main_v1)) (batchOf t) (rowOf t r) := by
    funext n
    unfold tileScore Cert.Attn.score rowsOf
    exact Finset.sum_congr rfl fun k _ => by rw [q_block, kv_block]
  rw [pay_apply, hs]
  unfold Cert.Attn.outK Cert.Attn.rowSum Cert.Attn.weight Cert.Attn.rowMax
  refine congrArg (fun z => Ideal.div z _) ?_
  exact Finset.sum_congr rfl fun n _ => by rw [kv_block]; rfl

/-- WHAT POINT `t` WRITES BACK is block `t` of the attention of the input array. -/
theorem flushed_eq (c : Dev nD) (t : Fin cfg0.N) :
    (dat (V1 m ρ) c).flushed 2 t = ((cfg0.win 2).blk t).view.read (Elt Ideal) (attnOf (V1 m ρ c main_v1)) := by
  show (cfg0.win 2).cut (grid0.coords t) ((dat (V1 m ρ) c).after 2 t) = _
  rw [after_out]
  unfold outTile
  rw [View.canon_unit_zero zero3]
  simp only [View.ld_unit_zero (S := S1x512x64) zero3, View.ld_unit_zero (S := S1x4096x64) zero3]
  funext j
  obtain ⟨z, r, d, rfl⟩ : ∃ (z : Fin 1) (r : Fin 512) (d : Fin 64), j = ix3 z r d := ⟨j 0, j 1, j 2, eq_ix3 j⟩
  obtain rfl : z = 0 := Subsingleton.elim _ _
  show k0_pay1 (F := Ideal) (blockAt (V1 m ρ) c 0 t) (blockAt (V1 m ρ) c 1 t) (ix3 (0 : Fin 1) r d)
      = attnOf (V1 m ρ c main_v1) (((cfg0.win 2).blk t).view.emb (ix3 (0 : Fin 1) r d))
  rw [tile_entry, out_emb]
  rfl

/-- THE OUTPUT ARRAY after the region: the attention of the input array with itself. -/
theorem outArr_eq (c : Dev nD) : outArr m ρ c = attnOf (V1 m ρ c main_v1) := by
  unfold outArr
  exact (dat (V1 m ρ) c).arrAt_eq_of_cover 2 _ (fun t _ => flushed_eq m ρ c t) cover

end Cert.KernelIdeal.AttnValue

end
-- ==== Proof.IdealHost.lean ====
/-
  The host operations around the attention region, read as values.

  Before the region the argument is recast from [8,64,64,64] to [8,64,4096] and its last two axes exchanged:
  the region's input is that array. After the region the output array's last two axes are exchanged back and
  the result recast to [8,64,64,64]: the program's result is that of the region's output array.
-/
import proofs.«118427_j65695819759964_2_alg».proof.Proof.IdealRun
import Idealize.ShloMosaic.Lib.StableHlo.Run

set_option maxRecDepth 16384

noncomputable section

namespace Cert.KernelIdeal.AttnHost

open Cert.KernelIdeal Cert.KernelIdeal.Gen Cert.KernelIdeal.AttnBody Cert.KernelIdeal.AttnRun
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The region's input array: the argument recast and its last two axes exchanged. -/
theorem input_eq (c : Dev nD) :
    (V1 m ρ c main_v1 : (⟨S8x4096x64, .f32⟩ : BufTy).Contents (Elt F))
      = transpose S8x4096x64 [0, 2, 1]
          (shapeCast S8x64x4096 (m ((c : Thread nD τ).loc main_arg0)) shapeCasts_S8x64x64x64_S8x64x4096)
          transposes_S8x64x4096_S8x4096x64_0_2_1 := by
  show StableHlo.after hostOps0 (W0 m ρ c) (Proc.devRef .tc main_v1) = _
  after_results
  rfl

/-- The program's result: the region's output array with its last two axes exchanged, recast. -/
theorem result_eq (c : Dev nD) :
    (W3 m ρ c (Proc.devRef .tc main_v4) : (⟨S8x64x64x64, .f32⟩ : BufTy).Contents (Elt F))
      = shapeCast S8x64x64x64
          (transpose S8x64x4096 [0, 2, 1] (outArr m ρ c) transposes_S8x4096x64_S8x64x4096_0_2_1)
          shapeCasts_S8x64x4096_S8x64x64x64 := by
  show StableHlo.after hostOps1 (W2 m ρ c) (Proc.devRef .tc main_v4) = _
  after_results
  rw [W2_out]
  rfl

end Cert.KernelIdeal.AttnHost

end
-- ==== Proof.RefIsAttn.lean ====
/-
  The reference's attention stage is the specification's row-normalised form.

  The reference reshapes its argument to 8 batches of 64 features by 4096 rows, transposes it to rows of features
  (call that array y), contracts y with the untransposed array over the features (the score of two rows: their inner
  product), takes each row's maximum from -infinity, subtracts it, exponentiates, sums each row, divides every
  exponential by its row's sum and contracts the quotients with y over the rows. Read coordinate by coordinate this
  is the specification's outR at y.
-/
import proofs.«118427_j65695819759964_2_alg».proof.Proof.AttnSpec
import proofs.«118427_j65695819759964_2_alg».proof.Proof.Gen.ReferenceIdeal.Read
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's transposed input, by coordinates: batch, row, feature. -/
abbrev rows (x0 : (⟨S8x64x64x64, .f32⟩ : BufTy).Contents (Elt Ideal)) : Cert.Attn.Rows :=
  fun b n c => val_main_v1 (F := Ideal) x0 (ix3 b n c)

/-- The untransposed array at (batch, feature, row) is the transposed one at (batch, row, feature). -/
theorem v0_eq_rows (x0 : (⟨S8x64x64x64, .f32⟩ : BufTy).Contents (Elt Ideal)) (b : Fin 8) (c : Fin 64) (m : Fin 4096) :
    val_main_v0 (F := Ideal) x0 (ix3 b c m) = rows x0 b m c := by
  show _ = val_main_v1 (F := Ideal) x0 (ix3 b m c)
  rw [val_main_v1_apply]
  exact congrArg _ (funext fun a => by match a with | ⟨0, _⟩ => rfl | ⟨1, _⟩ => rfl | ⟨2, _⟩ => rfl)

/-- The first contraction at (b, n, m) is the inner product of rows n and m of batch b. -/
theorem score_eq (x0 : (⟨S8x64x64x64, .f32⟩ : BufTy).Contents (Elt Ideal)) (b : Fin 8) (n m : Fin 4096) :
    val_main_v2 (F := Ideal) x0 (ix3 b n m) = Cert.Attn.score (rows x0) b n m := by
  rw [val_main_v2_apply]
  unfold Cert.Attn.score
  refine Finset.sum_congr rfl fun c _ => ?_
  have hl : lidx_main_v2 (ix3 b n m) c = ix3 b n c :=
    funext fun a => by match a with | ⟨0, _⟩ => rfl | ⟨1, _⟩ => rfl | ⟨2, _⟩ => rfl
  have hr : ridx_main_v2 (ix3 b n m) c = ix3 b c m :=
    funext fun a => by match a with | ⟨0, _⟩ => rfl | ⟨1, _⟩ => rfl | ⟨2, _⟩ => rfl
  rw [hl, hr, v0_eq_rows]

/-- The bit pattern of -infinity denotes the least extended real. -/
theorem negInf_eq_bot : Ideal.ofBits .f32 0xFF800000#32 = (⊥ : EReal) := by
  simp [Ideal.ofBits, Ideal.ieee]

/-- A reduced index (b, n) with the coordinate m put back on the last axis is (b, n, m). -/
theorem lift_ix2 (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  match c with
  | ⟨0, _⟩ => rfl
  | ⟨1, _⟩ => rfl
  | ⟨2, _⟩ => rfl

/-- The reduction with a maximum body from -infinity over the last axis, at (b, n), is the fold of max from the least
    element over the scores of row n. -/
theorem v3_eq (x0 : (⟨S8x64x64x64, .f32⟩ : BufTy).Contents (Elt Ideal)) (b : Fin 8) (n : Fin 4096) :
    val_main_v3 (F := Ideal) x0 (ix2 b n) = Cert.Attn.rowMax (rows x0) b n := by
  have h : S8x4096x4096.Reduces [2] S8x4096 := by decide
  unfold val_main_v3
  refine (Host.reduce_eq_fold_single (FloatOps.maximumf (F := Ideal) (φ := .f32)) (val_main_v2 (F := Ideal) x0)
    (val_main_cst (F := Ideal)) reducesTo_S8x4096x4096_S8x4096_d2 h h_S_ (ix2 b n)).trans ?_
  unfold Cert.Attn.rowMax
  have hi : val_main_cst (F := Ideal) (Shape.Idx.first h_S_) = (⊥ : EReal) := negInf_eq_bot
  have hf : (val_main_v2 (F := Ideal) x0 ∘ h.lift (ix2 b n)) = Cert.Attn.score (rows x0) b n :=
    funext fun k => by
      show val_main_v2 (F := Ideal) x0 (h.lift (ix2 b n) k) = _
      rw [lift_ix2 h b n k]
      exact score_eq x0 b n _
  rw [hi, hf]
  rfl

/-- The row maximum the reference subtracts, at (b, n), is the specification's. -/
theorem max_eq (x0 : (⟨S8x64x64x64, .f32⟩ : BufTy).Contents (Elt Ideal)) (b : Fin 8) (n : Fin 4096) :
    val_main_v5 (F := Ideal) x0 (ix2 b n) = Cert.Attn.rowMax (rows x0) b n := by
  rw [val_main_v5_apply, val_main_v4_apply, val_main_cst_0_apply, v3_eq]
  show max (Ideal.ofBits .f32 0xFF800000#32) _ = _
  rw [negInf_eq_bot]
  exact max_eq_right bot_le

/-- The exponential of the score less the row's maximum, at (b, n, m), is the specification's weight. -/
theorem weight_eq (x0 : (⟨S8x64x64x64, .f32⟩ : BufTy).Contents (Elt Ideal)) (b : Fin 8) (n m : Fin 4096) :
    val_main_v9 (F := Ideal) x0 (ix3 b n m) = Cert.Attn.weight (rows x0) b n m := by
  rw [val_main_v9_apply, val_main_v8_apply, val_main_v7_apply, val_main_v6_apply]
  have hi : idx_main_v6 (idx_main_v7 (ix3 b n m)) = ix2 b n :=
    funext fun a => by match a with | ⟨0, _⟩ => rfl | ⟨1, _⟩ => rfl
  rw [hi, score_eq, max_eq]
  rfl

/-- The row sum from the initial value zero, at (b, n), is the specification's sum of row n's weights. -/
theorem sum_eq (x0 : (⟨S8x64x64x64, .f32⟩ : BufTy).Contents (Elt Ideal)) (b : Fin 8) (n : Fin 4096) :
    val_main_v10 (F := Ideal) x0 (ix2 b n) = Cert.Attn.rowSum (rows x0) b n := by
  rw [val_main_v10_apply, val_main_cst_1_apply]
  show Ideal.ofBits .f32 0x00000000#32 + _ = _
  rw [Ideal.ofBits_zero_f32, zero_add]
  unfold Cert.Attn.rowSum
  refine Finset.sum_congr rfl fun m _ => ?_
  have hi : idx_main_v10 (ix2 b n) m = ix3 b n m :=
    funext fun a => by match a with | ⟨0, _⟩ => rfl | ⟨1, _⟩ => rfl | ⟨2, _⟩ => rfl
  rw [hi, weight_eq]

/-- The reference's attention stage at (b, n, d): every weight of row n divided by the row's sum, then combined with
    the batch's rows at feature d. -/
theorem val_main_v14_eq_outR (x0 : (⟨S8x64x64x64, .f32⟩ : BufTy).Contents (Elt Ideal)) (b : Fin 8) (n : Fin 4096) (d : Fin 64) :
    Read.val_main_v14 (F := Ideal) x0 (ValueIdx.ix3 b n d)
      = Cert.Attn.outR (fun b n c => Read.val_main_v1 (F := Ideal) x0 (ValueIdx.ix3 b n c)) b n d := by
  rw [val_main_v14_apply]
  unfold Cert.Attn.outR
  refine Finset.sum_congr rfl fun m _ => ?_
  have hl : lidx_main_v14 (ix3 b n d) m = ix3 b n m :=
    funext fun a => by match a with | ⟨0, _⟩ => rfl | ⟨1, _⟩ => rfl | ⟨2, _⟩ => rfl
  have hr : ridx_main_v14 (ix3 b n d) m = ix3 b m d :=
    funext fun a => by match a with | ⟨0, _⟩ => rfl | ⟨1, _⟩ => rfl | ⟨2, _⟩ => rfl
  have hi : idx_main_v11 (idx_main_v12 (ix3 b n m)) = ix2 b n :=
    funext fun a => by match a with | ⟨0, _⟩ => rfl | ⟨1, _⟩ => rfl
  rw [hl, hr, val_main_v13_apply, val_main_v12_apply, val_main_v11_apply, hi, weight_eq, sum_eq]
  rfl

end Cert.ReferenceIdeal.RefValue

end
-- ==== Proof.AttnLaw.lean ====
/-
  The two placements of the normalisation in self-attention agree on real inputs.

  With every entry of the array a real number, every score is the image of a real finite sum; the fold of
  `max` from `⊥` over a nonempty family of reals is a real (the maximum is attained); the exponential of a
  real difference is a positive real; the row sum, a sum of positive reals over a nonempty index set, is a
  positive real `l`. Division by `l` is then multiplication by the real `1 / l`, and a constant factor moves
  through a finite sum: `(∑ m, w m * v m) * (1/l) = ∑ m, (w m * (1/l)) * v m`, an identity of real numbers.
-/
import proofs.«118427_j65695819759964_2_alg».proof.Proof.AttnSpec

noncomputable section

open scoped BigOperators

namespace Cert.Attn

open Idealize.ShloMosaic

/-- The inclusion of the reals in the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `⊥` over a nonempty finite family of reals is a real: the maximum is attained. -/
theorem fold_max_coe {ι : Type} (s : Finset ι) (hs : s.Nonempty) (f : ι → ℝ) :
    ∃ r : ℝ, s.fold max ⊥ (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr, EReal.coe_strictMono.monotone.map_max]⟩

/-- Division by a nonzero real moves through a finite sum of products of reals: dividing the sum once equals
    dividing the first factor of every term. -/
theorem div_sum_eq_sum_div {ι : Type} (s : Finset ι) (w v : ι → ℝ) (l : ℝ) (hl : l ≠ 0) :
    Ideal.div (∑ m ∈ s, (w m : EReal) * (v m : EReal)) (l : EReal)
      = ∑ m ∈ s, Ideal.div (w m : EReal) (l : EReal) * (v m : EReal) := by
  simp only [Ideal.div_coe hl, ← EReal.coe_mul, ← coe_finset_sum]
  rw [Finset.sum_mul]
  refine congrArg _ (Finset.sum_congr rfl fun m _ => ?_)
  ring

/-- On an array of reals, dividing the weighted sum once by the row sum equals dividing every weight first. -/
theorem outK_eq_outR (y : Rows) (hy : ∀ b n c, ∃ r : ℝ, y b n c = (r : EReal))
    (b : Fin 8) (n : Fin 4096) (d : Fin 64) : outK y b n d = outR y b n d := by
  choose y' hy' using hy
  obtain rfl : y = fun b n c => (y' b n c : EReal) := by
    funext b n c; exact hy' b n c
  -- every score is the image of a real inner product
  have hscore : ∀ m, score (fun b n c => (y' b n c : EReal)) b n m
      = ((∑ c : Fin 64, y' b n c * y' b m c : ℝ) : EReal) := by
    intro m; unfold score; rw [coe_finset_sum]; simp only [EReal.coe_mul]
  -- the row maximum is a real
  obtain ⟨M, hM⟩ : ∃ M : ℝ, rowMax (fun b n c => (y' b n c : EReal)) b n = (M : EReal) := by
    unfold rowMax
    have hfun : score (fun b n c => (y' b n c : EReal)) b n
        = fun m => ((∑ c : Fin 64, y' b n c * y' b m c : ℝ) : EReal) := funext hscore
    rw [hfun]
    exact fold_max_coe _ Finset.univ_nonempty _
  -- every weight is the image of a positive real
  have hw : ∀ m, weight (fun b n c => (y' b n c : EReal)) b n m
      = ((Real.exp ((∑ c : Fin 64, y' b n c * y' b m c) - M) : ℝ) : EReal) := by
    intro m; unfold weight; rw [hscore, hM, ← EReal.coe_sub, Ideal.exp_coe]
  -- the row sum is the image of a positive real
  have hsum : rowSum (fun b n c => (y' b n c : EReal)) b n
      = ((∑ m : Fin 4096, Real.exp ((∑ c : Fin 64, y' b n c * y' b m c) - M) : ℝ) : EReal) := by
    unfold rowSum; rw [coe_finset_sum]; exact Finset.sum_congr rfl (fun m _ => hw m)
  have hpos : (0 : ℝ) < ∑ m : Fin 4096, Real.exp ((∑ c : Fin 64, y' b n c * y' b m c) - M) :=
    Finset.sum_pos (fun m _ => Real.exp_pos _) Finset.univ_nonempty
  unfold outK outR
  rw [hsum]
  simp only [hw]
  exact div_sum_eq_sum_div Finset.univ
    (fun m => Real.exp ((∑ c : Fin 64, y' b n c * y' b m c) - M)) (fun m => y' b m d) _ hpos.ne'

end Cert.Attn

end
-- ==== Proof.RefResult.lean ====
/-
  The reference's result in the specification's terms.

  On an input of real numbers the reference's attention stage, which divides every weight by its row's sum before the
  weighted sum is taken, equals the form that divides the weighted sum once; the reference's result is then the
  program's tail (the transposition back and the reshape to four axes) of that one array, and so is the result buffer
  of the reference's run.
-/
import proofs.«118427_j65695819759964_2_alg».proof.Proof.RefIsAttn
import proofs.«118427_j65695819759964_2_alg».proof.Proof.AttnLaw

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The attention array by coordinates, as one function of the input: the specification's form that divides the
    weighted sum once, at the input's transposed rows. -/
def attnArr (x0 : (⟨S8x64x64x64, .f32⟩ : BufTy).Contents (Elt Ideal)) : (⟨S8x4096x64, .f32⟩ : BufTy).Contents (Elt Ideal) :=
  fun i => Cert.Attn.outK (rows x0) (i 0) (i 1) (i 2)

/-- Every entry of the transposed rows is an entry of the input, so it is a real number when every input entry is. -/
theorem rows_real (x0 : (⟨S8x64x64x64, .f32⟩ : BufTy).Contents (Elt Ideal)) (hx : ∀ i, ∃ r : ℝ, x0 i = (r : EReal))
    (b : Fin 8) (n : Fin 4096) (c : Fin 64) : ∃ r : ℝ, rows x0 b n c = (r : EReal) := by
  show ∃ r : ℝ, val_main_v1 (F := Ideal) x0 (ix3 b n c) = (r : EReal)
  rw [val_main_v1_apply, val_main_v0_apply]
  exact hx _

/-- On an input of real numbers the reference's attention stage is the attention array: the two placements of the
    normalisation agree there. -/
theorem val_main_v14_eq_attnArr (x0 : (⟨S8x64x64x64, .f32⟩ : BufTy).Contents (Elt Ideal)) (hx : ∀ i, ∃ r : ℝ, x0 i = (r : EReal)) :
    Read.val_main_v14 (F := Ideal) x0 = attnArr x0 := by
  funext i
  obtain ⟨b, n, d, rfl⟩ : ∃ (b : Fin 8) (n : Fin 4096) (d : Fin 64), i = ix3 b n d := ⟨i 0, i 1, i 2, eq_ix3 i⟩
  rw [val_main_v14_eq_outR]
  exact (Cert.Attn.outK_eq_outR (rows x0) (rows_real x0 hx) b n d).symm

/-- On an input of real numbers the reference's result is the program's tail — the transposition back to features by
    rows and the reshape to four axes — of the attention array. -/
theorem val_main_v16_eq_tail (x0 : (⟨S8x64x64x64, .f32⟩ : BufTy).Contents (Elt Ideal)) (hx : ∀ i, ∃ r : ℝ, x0 i = (r : EReal)) :
    Read.val_main_v16 (F := Ideal) x0
      = shapeCast _ (transpose S8x64x4096 [0, 2, 1] (attnArr x0) transposes_S8x4096x64_S8x64x4096_0_2_1) shapeCasts_S8x64x4096_S8x64x64x64 := by
  unfold val_main_v16 val_main_v15
  rw [val_main_v14_eq_attnArr x0 hx]

/-- The reference's run in that form: from any memory with zero counters whose argument holds real numbers, every
    weakly fair execution terminates with the result buffer at the tail of the attention array of the argument, the
    argument unchanged. -/
theorem run_result (m : (ℓ : Loc nD τ sig) → Buf (Elt Ideal) ℓ) (ρ : Dev nD → PrngReg)
    (hx : ∀ (c : Dev nD) (i : S8x64x64x64.Idx), ∃ r : ℝ,
      (m ((c.tc : Thread nD τ).loc main_arg0) : (⟨S8x64x64x64, .f32⟩ : BufTy).Contents (Elt Ideal)) i = (r : EReal)) :
    θ_run defs (onTc (τ := τ) (main (F := Ideal))) ⟨m, fun _ => 0, ρ⟩ fun r => ∀ c : Dev nD,
      r.2.mem ((c.tc : Thread nD τ).loc main_v16)
          = shapeCast _ (transpose S8x64x4096 [0, 2, 1] (attnArr (m ((c.tc : Thread nD τ).loc main_arg0))) transposes_S8x4096x64_S8x64x4096_0_2_1) shapeCasts_S8x64x4096_S8x64x64x64
        ∧ r.2.mem ((c.tc : Thread nD τ).loc main_arg0) = m ((c.tc : Thread nD τ).loc main_arg0) :=
  (θ_run defs _ _).mono
    (fun _ h c => ⟨(h c).1.trans ((val_main_v16_eq (F := Ideal) _).trans (val_main_v16_eq_tail _ (hx c))), (h c).2⟩)
    (Cert.ReferenceIdeal.Value.run (F := Ideal) m ρ)

end Cert.ReferenceIdeal.RefValue

end
-- ==== Proof.FiniteInputs.lean ====
/-
  The precondition "every entry of the input is finite", read back by coordinates.

  The printed predicate takes the absolute value of every entry, compares it strictly below `+∞`, and
  folds the comparisons by `and` over all four axes from `true`. If the fold is `true` then every
  comparison is: `|x i| < ⊤` at every index `i`. An extended real whose absolute value `max a (-a)`
  is strictly below `⊤` is neither `⊤` nor `⊥` (since `-⊥ = ⊤`), hence a real number.
-/
import proofs.«118427_j65695819759964_2_alg».proof.Pre_finite_inputs
import proofs.«118427_j65695819759964_2_alg».proof.Proof.Gen.Pre_finite_inputs
import Idealize.ShloMosaic.Lib.ReduceAll
import Idealize.ShloMosaic.Lib.ValueIdx

noncomputable section

namespace Cert.FiniteInputs

open Idealize.ShloMosaic Idealize.ShloMosaic.ValueIdx Cert.Pre_finite_inputs

/-- The scalar shape has exactly one index. -/
instance : Subsingleton S_.Idx := ⟨fun _ _ => funext fun d => d.elim0⟩

/-- The word `0x7F800000` of the 32-bit format encodes `+∞`. -/
theorem inf_word : Ideal.ofBits .f32 0x7F800000#32 = (⊤ : EReal) := by
  simp [Ideal.ofBits, Ideal.ieee]

/-- A one-bit word built from a decided proposition is `1` only if the proposition holds. -/
theorem of_ofBool_decide_eq_one {p : Prop} [Decidable p] (h : BitVec.ofBool (decide p) = 1#1) : p := by
  by_cases hp : p
  · exact hp
  · simp [hp] at h

/-- An extended real whose absolute value is strictly below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- If the printed finiteness predicate holds of `x`, every entry of `x` is a real number. -/
theorem real_of_pre [Cert.Pre_finite_inputs.Facts] (x : FVec Ideal Cert.Pre_finite_inputs.S8x64x64x64 .f32)
    (h : Cert.Pre_finite_inputs.fn (F := Ideal) x = fun _ => 1#1)
    (i : Cert.Pre_finite_inputs.S8x64x64x64.Idx) : ∃ r : ℝ, x i = (r : EReal) := by
  have h0 := congrFun h ix0
  dsimp only [fn] at h0
  have hi := Host.reduce_andi_all _ _ _ _ _ h0 i
  have hc : Ideal.cmp .olt (max (x i) (-(x i))) (Ideal.ofBits .f32 0x7F800000#32) = 1#1 := hi
  rw [inf_word] at hc
  have hlt : max (x i) (-(x i)) < ⊤ := of_ofBool_decide_eq_one hc
  exact real_of_abs_lt_top _ hlt

end Cert.FiniteInputs

end
-- ==== Proof.lean ====
/-
  The certificate: single-pass softmax self-attention as a tiled kernel against its plain reference.

  Both programs recast the argument X : [8,64,64,64] to [8,64,4096] and exchange its last two axes, giving
  Y : [8,4096,64]; both end by exchanging the last two axes of an [8,4096,64] array A and recasting it. In
  between, the kernel computes A tile by tile — for each batch and each tile of 512 rows, the scores of the
  tile's rows against all 4096 rows of the batch, their exponentials less the row maximum, the exponentials'
  sum, the weighted sum of the batch's rows, and that sum divided once by the exponentials' sum — while the
  reference computes the same scores, maxima, exponentials and sums for all rows at once, divides every
  exponential by its row's sum, and only then takes the weighted sum. Over the extended reals the two agree
  when every entry of X is a real number: every score, maximum and exponential is then real, every row's sum
  of exponentials is a positive real, and dividing a finite sum of reals by a nonzero real is dividing each
  term. The precondition says exactly that every entry of X is finite.

  The frames: each program runs to the end, faults nowhere and leaves X as it was. For the two kernel
  programs this is the run of their three segments (host operations, the region, host operations), the
  region's two input windows reading ONE array at two half shares; for the reference it is its run read back.
-/
import proofs.«118427_j65695819759964_2_alg».proof.Defs
import proofs.«118427_j65695819759964_2_alg».proof.Proof.Gen.Kernel
import proofs.«118427_j65695819759964_2_alg».proof.Proof.Gen.KernelIdeal
import proofs.«118427_j65695819759964_2_alg».proof.Proof.Gen.ReferenceIdeal
import proofs.«118427_j65695819759964_2_alg».proof.Proof.Gen.Pre_finite_inputs
import proofs.«118427_j65695819759964_2_alg».proof.Proof.Gen.ReferenceIdeal.Read
import proofs.«118427_j65695819759964_2_alg».proof.Proof.KernelRun
import proofs.«118427_j65695819759964_2_alg».proof.Proof.IdealValue
import proofs.«118427_j65695819759964_2_alg».proof.Proof.IdealHost
import proofs.«118427_j65695819759964_2_alg».proof.Proof.RefResult
import proofs.«118427_j65695819759964_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

namespace AttnClaims

/-! ## The frames -/

theorem frame_kernel : Cert.frame_Kernel := fun m ρ _ => Cert.Kernel.AttnRun.frame (F := Bits) m ρ

theorem frame_ideal : Cert.frame_KernelIdeal := fun m ρ _ => Cert.KernelIdeal.AttnRun.frame (F := Ideal) m ρ

theorem frame_ref : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The two results are one array -/

open Cert.KernelIdeal Cert.KernelIdeal.Gen Cert.KernelIdeal.AttnRun in
/-- The kernel's result: the tail of the attention of the recast, transposed argument. -/
theorem kernel_result (m : (ℓ : Loc nD τ sig) → Buf (Elt Ideal) ℓ) (ρ : Dev nD → PrngReg) (c : Dev nD) :
    (W3 m ρ c (Proc.devRef .tc main_v4) : (⟨S8x64x64x64, .f32⟩ : BufTy).Contents (Elt Ideal))
      = shapeCast S8x64x64x64
          (transpose S8x64x4096 [0, 2, 1]
            (Cert.KernelIdeal.AttnValue.attnOf
              (transpose S8x4096x64 [0, 2, 1]
                (shapeCast S8x64x4096 (m ((c : Thread nD τ).loc main_arg0)) shapeCasts_S8x64x64x64_S8x64x4096)
                transposes_S8x64x4096_S8x4096x64_0_2_1))
            transposes_S8x4096x64_S8x64x4096_0_2_1)
          shapeCasts_S8x64x4096_S8x64x64x64 := by
  rw [Cert.KernelIdeal.AttnHost.result_eq, Cert.KernelIdeal.AttnValue.outArr_eq, Cert.KernelIdeal.AttnHost.input_eq]

/-- The attention array as the kernel side spells it is the one the reference side spells: both are
    `Cert.Attn.outK` of the same rows. -/
theorem same_array (x0 : (⟨Cert.ReferenceIdeal.S8x64x64x64, .f32⟩ : BufTy).Contents (Elt Ideal)) :
    Cert.KernelIdeal.AttnValue.attnOf
        (transpose Cert.KernelIdeal.S8x4096x64 [0, 2, 1]
          (shapeCast Cert.KernelIdeal.S8x64x4096 x0 Cert.KernelIdeal.Gen.shapeCasts_S8x64x64x64_S8x64x4096)
          Cert.KernelIdeal.Gen.transposes_S8x64x4096_S8x4096x64_0_2_1)
      = Cert.ReferenceIdeal.RefValue.attnArr x0 := rfl

/-! ## The value claim -/

theorem algebraic : Cert.algebraic_KernelIdeal_ReferenceIdeal := by
  intro m ρ m' ρ' hpre hagree
  have hx : ∀ (c : Dev Cert.KernelIdeal.nD) (i : Cert.Pre_finite_inputs.S8x64x64x64.Idx),
      ∃ r : ℝ, m ((c.tc : Thread Cert.KernelIdeal.nD Cert.KernelIdeal.τ).loc Cert.KernelIdeal.main_arg0) i = (r : EReal) :=
    fun c i => Cert.FiniteInputs.real_of_pre _ (hpre c) i
  refine ⟨fun c => shapeCast Cert.ReferenceIdeal.S8x64x64x64
      (transpose Cert.ReferenceIdeal.S8x64x4096 [0, 2, 1]
        (Cert.ReferenceIdeal.RefValue.attnArr (m ((c.tc : Thread Cert.KernelIdeal.nD Cert.KernelIdeal.τ).loc Cert.KernelIdeal.main_arg0)))
        Cert.ReferenceIdeal.Gen.transposes_S8x4096x64_S8x64x4096_0_2_1)
      Cert.ReferenceIdeal.Gen.shapeCasts_S8x64x4096_S8x64x64x64, ?_, ?_⟩
  · refine (θ_run Cert.KernelIdeal.defs _ _).mono (fun r h c => ⟨?_, ?_⟩) (Cert.KernelIdeal.AttnRun.run_main (F := Ideal) m ρ)
    · refine (h c _ (Cert.KernelIdeal.AttnRun.mem_uc Cert.KernelIdeal.main_v4 (by decide))).trans ?_
      rw [kernel_result, same_array]
    · exact (h c _ (Cert.KernelIdeal.AttnRun.mem_uc Cert.KernelIdeal.main_arg0 (by decide))).trans
        (Cert.KernelIdeal.AttnRun.W3_arg m ρ c)
  · refine (θ_run Cert.ReferenceIdeal.defs _ _).mono (fun r h c => ⟨(h c).1.trans ?_, (h c).2⟩)
      (Cert.ReferenceIdeal.RefValue.run_result m' ρ' fun c i => by rw [hagree c]; exact hx c i)
    rw [hagree c]

end AttnClaims

theorem claim : Cert.Claim := ⟨Cert.Kernel.Gen.facts, Cert.KernelIdeal.Gen.facts, Cert.ReferenceIdeal.Gen.facts, Cert.Pre_finite_inputs.Gen.facts,
  AttnClaims.frame_kernel, AttnClaims.frame_ideal, AttnClaims.frame_ref, AttnClaims.preserves, AttnClaims.algebraic⟩

end Cert.Proof

end
